-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S1024x256 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S2048x256 : Shape := ⟨2, ![2048, 256]⟩
abbrev S1024x256 : Shape := ⟨2, ![1024, 256]⟩
abbrev S1x1024 : Shape := ⟨2, ![1, 1024]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024x256, .f32⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [BitOps F]

abbrev grid0 : Pipeline.Grid := ⟨3, ![2, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S1024x256_S1024x256_0_0 : ∀ a, (![0, 0] : Fin 2 → Nat) a + S1024x256.size a ≤ S1024x256.size a
  h_S1024x256 : 0 < S1024x256.numel
  natLt_1_32 : 1 < 32
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x4096.size a
  hwx0_0 : ∀ i : grid0.Coords, EltTy.bits .f32 = 32 ∨ (Rect.block (s := S4096x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .f32 = 32 ∨ (Rect.block (s := S4096x4096) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x4096.size a
  hwx0_3 : ∀ i : grid0.Coords, EltTy.bits .f32 = 32 ∨ (Rect.block (s := S4096x4096) S2048x1024.size (cc0_transform_3 i) (hinb0_3 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .i1⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_3 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Ternary.lean ====
/-
  The ternary quantizer on the extended reals, in the two spellings the programs use.

  The reference quantizes a weight `w` by a nested choice: `1` when `w > 1/2`, else `-1` when `w < -1/2`, else `0`
  (`tern`). The kernel multiplies a sign by a gate: the sign is `-1` or `1` by `w < 0` where `|w| > 0` and `w` itself
  (zero) elsewhere, the gate is the bit `|w| > 1/2` read as the integer 0 or 1. The two agree at every extended real:
  above one half the sign is `1` and the gate `1`; below minus one half the sign is `-1` and the gate `1`; between,
  the gate is `0` and a product with zero is zero whatever the sign. No finiteness is used.
-/
import Idealize.ShloMosaic.PureOps.Ideal
import Idealize.ShloMosaic.PureOps.Ideal.Laws
import Idealize.ShloMosaic.Lib.ValueIdx

noncomputable section

namespace Cert.Ternary

open Idealize.ShloMosaic Idealize.ShloMosaic.ValueIdx

/-- `1` above one half, `-1` below minus one half, `0` between. -/
def tern (w : EReal) : EReal :=
  if ((1 / 2 : ℝ) : EReal) < w then 1 else if w < ((-(1 / 2) : ℝ) : EReal) then -1 else 0

/-! ## The four literals -/

theorem bits_half : Ideal.ofBits .f32 0x3F000000#32 = ((1 / 2 : ℝ) : EReal) := by
  simp [Ideal.ofBits, Ideal.ieee, -EReal.coe_mul]; norm_num

theorem bits_neg_half : Ideal.ofBits .f32 0xBF000000#32 = ((-(1 / 2) : ℝ) : EReal) := by
  simp [Ideal.ofBits, Ideal.ieee, -EReal.coe_mul]; norm_num

theorem bits_one : Ideal.ofBits .f32 0x3F800000#32 = 1 := by
  simp [Ideal.ofBits, Ideal.ieee, -EReal.coe_mul]; norm_num

theorem bits_neg_one : Ideal.ofBits .f32 0xBF800000#32 = -1 := by
  simp [Ideal.ofBits, Ideal.ieee, -EReal.coe_mul]; norm_num

/-! ## A decided bit: as a choice, and as the integer 0 or 1 -/

theorem cmp_ogt (x y : EReal) : Ideal.cmp .ogt x y = BitVec.ofBool (decide (y < x)) := rfl

theorem cmp_olt (x y : EReal) : Ideal.cmp .olt x y = BitVec.ofBool (decide (x < y)) := rfl

/-- A select on the bit of a decidable proposition is the `if` on the proposition. -/
theorem select_decide {α : Type} (P : Prop) [Decidable P] (a b : α) :
    Scalar.select (BitVec.ofBool (decide P)) a b = if P then a else b := by
  by_cases h : P
  · rw [if_pos h, decide_eq_true h]; exact select_one a b
  · rw [if_neg h, decide_eq_false h]; exact select_zero a b

/-- The bit of a decidable proposition, widened to a word and read as a signed integer, is 1 or 0. -/
theorem gate_decide (P : Prop) [Decidable P] :
    ((((BitVec.ofBool (decide P)).setWidth 32).toInt : ℝ) : EReal) = if P then 1 else 0 := by
  by_cases h : P
  · have e : ((BitVec.ofBool true).setWidth 32).toInt = 1 := by decide
    rw [if_pos h, decide_eq_true h, e]; simp
  · have e : ((BitVec.ofBool false).setWidth 32).toInt = 0 := by decide
    rw [if_neg h, decide_eq_false h, e]; simp

/-! ## The two spellings -/

/-- The kernel's spelling: the sign (where `|w| > 0`, else `w`) times the gate `|w| > 1/2` as 0 or 1. -/
def kernelTern (w : EReal) : EReal :=
  Scalar.select (Ideal.cmp .ogt (max w (-w)) (Ideal.ofBits .f32 0x00000000#32))
      (Scalar.select (Ideal.cmp .olt w (Ideal.ofBits .f32 0x00000000#32)) (Ideal.ofBits .f32 0xBF800000#32)
        (Ideal.ofBits .f32 0x3F800000#32)) w
    * ((((Ideal.cmp .ogt (max w (-w)) (Ideal.ofBits .f32 0x3F000000#32)).setWidth 32).toInt : ℝ) : EReal)

/-- The reference's spelling: the nested choice on `w > 1/2` and `w < -1/2`. -/
def hostTern (w : EReal) : EReal :=
  Scalar.select (Ideal.cmp .ogt w (Ideal.ofBits .f32 0x3F000000#32)) (Ideal.ofBits .f32 0x3F800000#32)
    (Scalar.select (Ideal.cmp .olt w (Ideal.ofBits .f32 0xBF000000#32)) (Ideal.ofBits .f32 0xBF800000#32)
      (Ideal.ofBits .f32 0x00000000#32))

theorem hostTern_eq (w : EReal) : hostTern w = tern w := by
  unfold hostTern tern
  rw [cmp_ogt, cmp_olt, select_decide, select_decide, Ideal.ofBits_zero_f32, bits_one, bits_neg_one, bits_half,
    bits_neg_half]

/-- `|w|` is above one half exactly when `w` is above one half or below minus one half. -/
theorem half_lt_abs (w : EReal) :
    ((1 / 2 : ℝ) : EReal) < max w (-w) ↔ ((1 / 2 : ℝ) : EReal) < w ∨ w < ((-(1 / 2) : ℝ) : EReal) := by
  rw [lt_max_iff, EReal.lt_neg_comm, ← EReal.coe_neg]

theorem kernelTern_eq (w : EReal) : kernelTern w = tern w := by
  unfold kernelTern tern
  rw [cmp_ogt, cmp_ogt, cmp_olt, select_decide, select_decide, gate_decide, Ideal.ofBits_zero_f32, bits_one,
    bits_neg_one, bits_half]
  have hhalf : (0 : EReal) < ((1 / 2 : ℝ) : EReal) := EReal.coe_pos.mpr (by norm_num)
  by_cases h1 : ((1 / 2 : ℝ) : EReal) < w
  · have hpos : (0 : EReal) < w := hhalf.trans h1
    rw [if_pos h1, if_pos ((half_lt_abs w).mpr (Or.inl h1)), if_pos (lt_max_of_lt_left hpos),
      if_neg (not_lt.mpr hpos.le), mul_one]
  · rw [if_neg h1]
    by_cases h2 : w < ((-(1 / 2) : ℝ) : EReal)
    · have hneg : w < 0 := h2.trans (EReal.coe_neg'.mpr (by norm_num))
      have hpos : (0 : EReal) < -w := by rw [EReal.lt_neg_comm, neg_zero]; exact hneg
      rw [if_pos h2, if_pos ((half_lt_abs w).mpr (Or.inr h2)), if_pos (lt_max_of_lt_right hpos), if_pos hneg,
        mul_one]
    · rw [if_neg h2, if_neg (fun h => ((half_lt_abs w).mp h).elim h1 h2), mul_zero]

end Cert.Ternary

end
-- ==== Proof.Payload.lean ====
/-
  The kernel body's three stored values, read at an entry at exact values.

  The body keeps its output block in place across the sixteen points of the contraction axis. It stores the zero block
  at the first point; at every point it stores the block it finds plus the product of the point's activation block
  [2048, 256] with the point's quantized weight block [1024, 256], both contracted along their second axis, so entry
  `(p, q)` gains `∑ₖ x[p, k] · tern (w[q, k])` over the 256 columns of the two blocks (a change of float format is the
  identity at exact values, and the sign-times-gate spelling of the quantizer is `tern`); at the last point it
  stores the block plus the bias row [1, 1024] broadcast down the rows.
-/
import proofs.«110966_j46084999086183_2_alg».proof.Proof.Gen.KernelIdeal.Skeleton
import proofs.«110966_j46084999086183_2_alg».proof.Proof.Ternary
import Idealize.ShloMosaic.PureOps.Ideal.Laws
import Idealize.ShloMosaic.Lib.ValueLayout
import Idealize.ShloMosaic.Lib.Pipeline.Value

noncomputable section

namespace Cert.KernelIdeal.Payload

open Cert.KernelIdeal Cert.KernelIdeal.Gen Idealize.ShloMosaic Idealize.ShloMosaic.ValueIdx

/-- The first point's stored block is zero. -/
theorem zero_apply (j : S2048x1024.Idx) : k0_pay1 (F := Ideal) j = 0 :=
  Ideal.ofBits_zero_f32

/-! ## The product's operand indices: output entry `(p, q)` and contraction coordinate `k` read the left operand at
`(p, k)` and the right at `(q, k)` -/

theorem lhs_row (j : S2048x1024.Idx) (c : dot_S2048x256_S1024x256_S2048x1024_1_1_0_0_n_n.contr.Idx) :
    (dot_S2048x256_S1024x256_S2048x1024_1_1_0_0_n_n.lhsIdx j c 0).val = (j 0).val := by
  unfold DotDims.lhsIdx
  rw [dif_neg (show ¬(0 : Fin S2048x256.rank) ∈ dot_S2048x256_S1024x256_S2048x1024_1_1_0_0_n_n.lhsBatch by decide),
    dif_pos (show (0 : Fin S2048x256.rank) ∈ dot_S2048x256_S1024x256_S2048x1024_1_1_0_0_n_n.lhsNonContracting by decide)]
  rfl

theorem lhs_col (j : S2048x1024.Idx) (c : dot_S2048x256_S1024x256_S2048x1024_1_1_0_0_n_n.contr.Idx) :
    (dot_S2048x256_S1024x256_S2048x1024_1_1_0_0_n_n.lhsIdx j c 1).val = (c ⟨0, by decide⟩).val :=
  dot_S2048x256_S1024x256_S2048x1024_1_1_0_0_n_n.lhsIdx_val_of_single rfl j c

theorem rhs_row (j : S2048x1024.Idx) (c : dot_S2048x256_S1024x256_S2048x1024_1_1_0_0_n_n.contr.Idx) :
    (dot_S2048x256_S1024x256_S2048x1024_1_1_0_0_n_n.rhsIdx j c 0).val = (j 1).val := by
  unfold DotDims.rhsIdx
  rw [dif_neg (show ¬(0 : Fin S1024x256.rank) ∈ dot_S2048x256_S1024x256_S2048x1024_1_1_0_0_n_n.rhsBatch by decide),
    dif_pos (show (0 : Fin S1024x256.rank) ∈ dot_S2048x256_S1024x256_S2048x1024_1_1_0_0_n_n.rhsNonContracting by decide)]
  rfl

theorem rhs_col (j : S2048x1024.Idx) (c : dot_S2048x256_S1024x256_S2048x1024_1_1_0_0_n_n.contr.Idx) :
    (dot_S2048x256_S1024x256_S2048x1024_1_1_0_0_n_n.rhsIdx j c 1).val = (c ⟨0, by decide⟩).val :=
  dot_S2048x256_S1024x256_S2048x1024_1_1_0_0_n_n.rhsIdx_val_of_single rfl j c

/-- The product into the zero block at `(p, q)`: `∑ₖ a[p, k] · b[q, k]`. -/
theorem product_apply (a : FVec Ideal S2048x256 .bf16) (b : FVec Ideal S1024x256 .bf16) (p : Fin 2048) (q : Fin 1024) :
    FloatOps.matmul dot_S2048x256_S1024x256_S2048x1024_1_1_0_0_n_n none a b (constant (F := Ideal) S2048x1024 .f32 0x00000000#32) (ix2 p q)
      = ∑ k : Fin 256, a (ix2 p k) * b (ix2 q k) := by
  rw [Ideal.matmul_constant_zero_apply,
    ← Equiv.sum_comp (contrEquiv1 dot_S2048x256_S1024x256_S2048x1024_1_1_0_0_n_n 256 rfl rfl).symm]
  refine Finset.sum_congr rfl fun k _ => ?_
  have hk := contrEquiv1_symm_val dot_S2048x256_S1024x256_S2048x1024_1_1_0_0_n_n 256 rfl rfl k
  have el : dot_S2048x256_S1024x256_S2048x1024_1_1_0_0_n_n.lhsIdx (ix2 p q) ((contrEquiv1 dot_S2048x256_S1024x256_S2048x1024_1_1_0_0_n_n 256 rfl rfl).symm k) = ix2 p k :=
    funext fun ax => Fin.ext (by
      match ax with
      | ⟨0, _⟩ => exact lhs_row _ _
      | ⟨1, _⟩ => exact (lhs_col _ _).trans hk)
  have er : dot_S2048x256_S1024x256_S2048x1024_1_1_0_0_n_n.rhsIdx (ix2 p q) ((contrEquiv1 dot_S2048x256_S1024x256_S2048x1024_1_1_0_0_n_n 256 rfl rfl).symm k) = ix2 q k :=
    funext fun ax => Fin.ext (by
      match ax with
      | ⟨0, _⟩ => exact rhs_row _ _
      | ⟨1, _⟩ => exact (rhs_col _ _).trans hk)
  rw [el, er]

/-- Every point's stored block at `(p, q)`: what the block held there plus `∑ₖ x[p, k] · tern (w[q, k])`. -/
theorem accumulate_apply (w : Vec Ideal S1024x256 .f32) (x : Vec Ideal S2048x256 .f32) (acc : Vec Ideal S2048x1024 .f32)
    (p : Fin 2048) (q : Fin 1024) :
    k0_pay2 w x acc (ix2 p q) = acc (ix2 p q) + ∑ k : Fin 256, x (ix2 p k) * Cert.Ternary.tern (w (ix2 q k)) := by
  unfold k0_pay2
  rw [addf_apply, shapeCast_self]
  simp only [matmul]
  rw [product_apply]
  refine congrArg (acc (ix2 p q) + ·) (Finset.sum_congr rfl fun k _ => ?_)
  show x (ix2 p k) * Cert.Ternary.kernelTern (w (ix2 q k)) = _
  rw [Cert.Ternary.kernelTern_eq]

/-- The last point's second stored block at `(p, q)`: the block there plus the bias row at column `q`. -/
theorem bias_apply (a : Vec Ideal S2048x1024 .f32) (b : Vec Ideal S1x1024 .f32) (p : Fin 2048) (q : Fin 1024) :
    k0_pay3 a b (ix2 p q) = a (ix2 p q) + b (ix2 (0 : Fin 1) q) := by
  unfold k0_pay3
  rw [addf_apply, shapeCast_self, shapeCast_self, broadcastTo_1b_ab_apply]

end Cert.KernelIdeal.Payload

end
-- ==== Proof.Blocks.lean ====
/-
  Each input window's block at a grid point, read off the argument arrays.

  The grid is [2, 4, 16]: point `t` has coordinates `(t / 64, t / 16 % 4, t % 16)` — the row block of the
  activations, the row block of the weights (the column block of the result), and the block of the contraction axis.
  The activation block at `t` is rows `2048 · (t / 64) …` and columns `256 · (t % 16) …` of `x`; the weight block is
  rows `1024 · (t / 16 % 4) …` and the same columns of `w`; the bias block is columns `1024 · (t / 16 % 4) …` of the
  bias laid out as one row, which the region finds as the bias argument re-laid from [4096] to [1, 4096].
-/
import proofs.«110966_j46084999086183_2_alg».proof.Proof.Gen.KernelIdeal.Frame
import Idealize.ShloMosaic.Lib.ValueLayout
import Idealize.ShloMosaic.Lib.StableHlo.Run
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-! ## The argument arrays and the blocks, as arrays of extended reals -/

/-- The activations `x` [4096, 4096], the weights `w` [4096, 4096] and the bias `b` [4096] on core `c`. -/
def argX (c : Dev nD) : S4096x4096.Idx → EReal := m ((c : Thread nD τ).loc main_arg0)
def argW (c : Dev nD) : S4096x4096.Idx → EReal := m ((c : Thread nD τ).loc main_arg1)
def argB (c : Dev nD) : S4096.Idx → EReal := m ((c : Thread nD τ).loc main_arg2)

/-- The activation, weight and bias blocks at point `t`. -/
def xblk (c : Dev nD) (t : Fin cfg0.N) : S2048x256.Idx → EReal := iblk m c 0 t
def wblk (c : Dev nD) (t : Fin cfg0.N) : S1024x256.Idx → EReal := iblk m c 1 t
def bblk (c : Dev nD) (t : Fin cfg0.N) : S1x1024.Idx → EReal := iblk m c 2 t

/-- The three input windows' block indices at point `t`, decided over the 128 points. -/
theorem index_facts : ∀ t : Fin cfg0.N,
    win0_0.index t (0 : Fin 2) = t.val / 64 ∧ win0_0.index t (1 : Fin 2) = t.val % 16
    ∧ win0_1.index t (0 : Fin 2) = t.val / 16 % 4 ∧ win0_1.index t (1 : Fin 2) = t.val % 16
    ∧ win0_2.index t (0 : Fin 2) = 0 ∧ win0_2.index t (1 : Fin 2) = t.val / 16 % 4 :=
  (by decide +kernel : ∀ t : Fin grid0.N, _)

/-- The activation block at `t`, entry `(p, k)`: `x` at row `2048 · (t / 64) + p`, column `256 · (t % 16) + k`. -/
theorem x_block (c : Dev nD) (t : Fin cfg0.N) (p : Fin 2048) (k : Fin 256) (r i : Fin 4096)
    (hr : r.val = t.val / 64 * 2048 + p.val) (hi : i.val = t.val % 16 * 256 + k.val) :
    xblk m c t (ix2 p k) = argX m c (ix2 r i) := by
  obtain ⟨e0, e1, -⟩ := index_facts t
  unfold xblk argX iblk
  rw [View.read_apply]
  show V m c main_arg0 _ = _
  rw [V_main_arg0]
  refine congrArg _ (funext fun a => Fin.ext ?_)
  match a with
  | ⟨0, _⟩ => show win0_0.index t (0 : Fin 2) * 2048 + 1 * p.val = r.val; rw [e0, hr]; omega
  | ⟨1, _⟩ => show win0_0.index t (1 : Fin 2) * 256 + 1 * k.val = i.val; rw [e1, hi]; omega

/-- The weight block at `t`, entry `(q, k)`: `w` at row `1024 · (t / 16 % 4) + q`, column `256 · (t % 16) + k`. -/
theorem w_block (c : Dev nD) (t : Fin cfg0.N) (q : Fin 1024) (k : Fin 256) (o i : Fin 4096)
    (ho : o.val = t.val / 16 % 4 * 1024 + q.val) (hi : i.val = t.val % 16 * 256 + k.val) :
    wblk m c t (ix2 q k) = argW m c (ix2 o i) := by
  obtain ⟨-, -, e0, e1, -⟩ := index_facts t
  unfold wblk argW iblk
  rw [View.read_apply]
  show V m c main_arg1 _ = _
  rw [V_main_arg1]
  refine congrArg _ (funext fun a => Fin.ext ?_)
  match a with
  | ⟨0, _⟩ => show win0_1.index t (0 : Fin 2) * 1024 + 1 * q.val = o.val; rw [e0, ho]; omega
  | ⟨1, _⟩ => show win0_1.index t (1 : Fin 2) * 256 + 1 * k.val = i.val; rw [e1, hi]; omega

/-- The region finds the bias as one row: the bias argument re-laid from [4096] to [1, 4096]. -/
theorem bias_row (c : Dev nD) :
    (V m c main_v0 : S1x4096.Idx → EReal)
      = shapeCast S1x4096 (m ((c : Thread nD τ).loc main_arg2)) shapeCasts_S4096_S1x4096 := by
  dsimp only [V, hostOps0]
  after_results
  rfl

/-- The bias block at `t`, entry `(0, q)`: the bias at `1024 · (t / 16 % 4) + q`. -/
theorem bias_block (c : Dev nD) (t : Fin cfg0.N) (q : Fin 1024) (o : Fin 4096)
    (ho : o.val = t.val / 16 % 4 * 1024 + q.val) :
    bblk m c t (ix2 (0 : Fin 1) q) = argB m c (ix1 o) := by
  obtain ⟨-, -, -, -, e0, e1⟩ := index_facts t
  unfold bblk argB iblk
  rw [View.read_apply]
  show V m c main_v0 _ = _
  rw [bias_row]
  refine (congrArg _ (funext fun a => Fin.ext ?_)).trans
    (shapeCast_a_1a_apply (m ((c : Thread nD τ).loc main_arg2)) shapeCasts_S4096_S1x4096 (0 : Fin 1) o)
  match a with
  | ⟨0, _⟩ => show win0_2.index t (0 : Fin 2) * 1 + 1 * 0 = 0; rw [e0]
  | ⟨1, _⟩ => show win0_2.index t (1 : Fin 2) * 1024 + 1 * q.val = o.val; rw [e1, ho]; omega

end Cert.KernelIdeal.Blocks

end
-- ==== Proof.Spec.lean ====
/-
  The result both programs compute, as one function of the three argument arrays.

  For activations `x` [4096, 4096], weights `w` [4096, 4096] and a bias `b` [4096], entry `(t, o)` of the result is
  `∑ᵢ x[t, i] · tern (w[o, i]) + b[o]`: row `t` of the activations against row `o` of the ternary-quantized weights
  (both operands contracted along their second axis), plus the bias of column `o`.
-/
import proofs.«110966_j46084999086183_2_alg».proof.Proof.Ternary

noncomputable section

namespace Cert.Spec

open Idealize.ShloMosaic Idealize.ShloMosaic.ValueIdx Cert.Ternary

/-- The [4096, 4096] arrays' shape and the bias's. -/
abbrev SM : Shape := ⟨2, ![4096, 4096]⟩
abbrev SV : Shape := ⟨1, ![4096]⟩

/-- `out x w b (t, o) = ∑ᵢ x[t, i] · tern (w[o, i]) + b[o]`. -/
def out (x w : SM.Idx → EReal) (b : SV.Idx → EReal) : SM.Idx → EReal := fun j =>
  (∑ i : Fin 4096, x (ix2 (n0 := 4096) (j 0) i) * tern (w (ix2 (n0 := 4096) (j 1) i))) + b (ix1 (n := 4096) (j 1))

theorem out_apply (x w : SM.Idx → EReal) (b : SV.Idx → EReal) (t o : Fin 4096) :
    out x w b (ix2 t o) = (∑ i : Fin 4096, x (ix2 t i) * tern (w (ix2 o i))) + b (ix1 o) := rfl

end Cert.Spec

end
-- ==== Proof.LibSumFinMul.lean ====
/-
  A sum over the positions of a row-major flattening of an m×n grid is the double sum over rows and columns.

  Position k of `Fin (m * n)` is `q + n * p` for exactly one row p and column q (Mathlib's `finProdFinEquiv`), so in any
  commutative additive monoid the sum over the positions is the iterated sum over p and q of the term at that position.
-/
import Mathlib.Algebra.BigOperators.Fin
import Mathlib.Logic.Equiv.Fin.Basic

open scoped BigOperators

namespace SumFinMul

/-- `∑ k : Fin (m * n), f k = ∑ p, ∑ q, f (q + n * p)`. -/
theorem sum_fin_mul {M : Type*} [AddCommMonoid M] (m n : ℕ) (f : Fin (m * n) → M) :
    ∑ k, f k = ∑ p : Fin m, ∑ q : Fin n, f (finProdFinEquiv (p, q)) := by
  rw [← Equiv.sum_comp finProdFinEquiv f, Fintype.sum_prod_type]

/-- The position of row p, column q. -/
theorem finProdFinEquiv_val {m n : ℕ} (p : Fin m) (q : Fin n) : (finProdFinEquiv (p, q)).val = q.val + n * p.val := rfl

end SumFinMul
-- ==== Proof.Fold.lean ====
/-
  The sixteen points that share an output block leave the specification in it.

  The result block `(a, b)` — rows `2048·a …`, columns `1024·b …` — is held in place over the sixteen consecutive
  points `16·r … 16·r + 15`, `r = 4·a + b`. The first point stores zero plus its product, each later point adds its
  product, so after fifteen points entry `(p, q)` holds `0 + ∑ₛ ∑ₖ x[2048·a + p, 256·s + k] · tern (w[1024·b + q, 256·s + k])`;
  the sixteenth point adds its product and the bias at `1024·b + q`. Addition on the extended reals is commutative
  and associative, so the sixteen partial sums of 256 columns each are the one sum over the 4096 columns (position
  `i = k + 256·s` of the row), with no finiteness assumed.
-/
import proofs.«110966_j46084999086183_2_alg».proof.Proof.Gen.KernelIdeal.Value
import proofs.«110966_j46084999086183_2_alg».proof.Proof.Payload
import proofs.«110966_j46084999086183_2_alg».proof.Proof.Blocks
import proofs.«110966_j46084999086183_2_alg».proof.Proof.Spec
import proofs.«110966_j46084999086183_2_alg».proof.Proof.LibSumFinMul

noncomputable section

namespace Cert.KernelIdeal.Fold

open Cert.KernelIdeal Cert.KernelIdeal.Gen Cert.KernelIdeal.Value Idealize.ShloMosaic Idealize.ShloMosaic.TcCoe
open Idealize.SL.Sem Idealize.ShloMosaic.ValueIdx
open Cert.Ternary (tern)
open Cert.KernelIdeal.Payload Cert.KernelIdeal.Blocks

variable (m : (ℓ : Loc nD τ sig) → Buf (Elt Ideal) ℓ)

/-- Point `n`'s addend to the block at `(p, q)`: its activation block's row `p` against its quantized weight
    block's row `q`. (Zero past the grid, where it is never read.) -/
def addend (c : Dev nD) (n : ℕ) (j : S2048x1024.Idx) : EReal :=
  if h : n < cfg0.N then
    ∑ k : Fin 256, xblk m c ⟨n, h⟩ (ix2 (n0 := 2048) (j 0) k) * tern (wblk m c ⟨n, h⟩ (ix2 (n0 := 1024) (j 1) k))
  else 0

theorem addend_apply (c : Dev nD) (n : ℕ) (h : n < cfg0.N) (p : Fin 2048) (q : Fin 1024) :
    addend m c n (ix2 p q) = ∑ k : Fin 256, xblk m c ⟨n, h⟩ (ix2 p k) * tern (wblk m c ⟨n, h⟩ (ix2 q k)) := by
  unfold addend
  rw [dif_pos h]

/-- At a point that is neither first nor last of its run the body stores the block plus the point's product. -/
theorem step_mid (c : Dev nD) (n : ℕ) (hn : n < cfg0.N) (h : ¬n % 16 = 0 ∧ ¬n % 16 = 15) (acc : Vec Ideal S2048x1024 .f32) :
    step3 m c n hn acc = k0_pay2 (iblk m c 1 ⟨n, hn⟩) (iblk m c 0 ⟨n, hn⟩) acc := by
  unfold step3
  rw [if_pos h]

/-- At the last point of a run it stores that and then the bias added to it. -/
theorem step_last (c : Dev nD) (n : ℕ) (hn : n < cfg0.N) (h0 : ¬n % 16 = 0) (h1 : n % 16 = 15) (acc : Vec Ideal S2048x1024 .f32) :
    step3 m c n hn acc
      = k0_pay3 (k0_pay2 (iblk m c 1 ⟨n, hn⟩) (iblk m c 0 ⟨n, hn⟩) acc) (iblk m c 2 ⟨n, hn⟩) := by
  unfold step3
  rw [if_neg (fun h => h.2 h1), if_pos ⟨h0, h1⟩]

/-- After the first fifteen points of run `r` the block holds zero plus their fifteen addends. -/
theorem partial_sum (c : Dev nD) (r : ℕ) (h : 16 * r + 14 < cfg0.N) (j : S2048x1024.Idx) :
    Pipeline.accAt (reset3 m c) (step3 m c) (16 * r) 14 h j
      = 0 + ∑ s ∈ Finset.range 15, addend m c (16 * r + s) j := by
  refine Pipeline.accAt_add_apply (ι := S2048x1024.Idx) (β := EReal) (reset3 m c) (step3 m c) (fun _ => 0)
    (addend m c) (16 * r) 14 ?_ ?_ 14 le_rfl h j
  · intro h0 i
    obtain ⟨p, q, rfl⟩ : ∃ (p : Fin 2048) (q : Fin 1024), i = ix2 p q := ⟨i 0, i 1, eq_ix2 i⟩
    unfold reset3
    refine (accumulate_apply (iblk m c 1 ⟨16 * r, h0⟩) (iblk m c 0 ⟨16 * r, h0⟩) (k0_pay1 (F := Ideal)) p q).trans ?_
    rw [zero_apply, addend_apply m c (16 * r) h0 p q]
    rfl
  · intro n hn acc i h1 h2
    obtain ⟨p, q, rfl⟩ : ∃ (p : Fin 2048) (q : Fin 1024), i = ix2 p q := ⟨i 0, i 1, eq_ix2 i⟩
    rw [step_mid m c n hn (by omega)]
    refine (accumulate_apply (iblk m c 1 ⟨n, hn⟩) (iblk m c 0 ⟨n, hn⟩) acc p q).trans ?_
    rw [addend_apply m c n hn p q]
    rfl

/-- After all sixteen points of run `r` the block holds the sixteen addends and the last point's bias block. -/
theorem block_fold (c : Dev nD) (r : ℕ) (h : 16 * r + 15 < cfg0.N) (p : Fin 2048) (q : Fin 1024) :
    Pipeline.accAt (reset3 m c) (step3 m c) (16 * r) 15 h (ix2 p q)
      = (∑ s ∈ Finset.range 16, addend m c (16 * r + s) (ix2 p q)) + bblk m c ⟨16 * r + 15, h⟩ (ix2 (0 : Fin 1) q) := by
  show step3 m c (16 * r + 15) h (Pipeline.accAt (reset3 m c) (step3 m c) (16 * r) 14 (Nat.lt_of_succ_lt h)) (ix2 p q) = _
  rw [step_last m c (16 * r + 15) h (by omega) (by omega)]
  refine (bias_apply _ (iblk m c 2 ⟨16 * r + 15, h⟩) p q).trans ?_
  refine congrArg (· + bblk m c ⟨16 * r + 15, h⟩ (ix2 (0 : Fin 1) q)) ?_
  refine (accumulate_apply (iblk m c 1 ⟨16 * r + 15, h⟩) (iblk m c 0 ⟨16 * r + 15, h⟩) _ p q).trans ?_
  rw [partial_sum, zero_add, Finset.sum_range_succ _ 15, addend_apply m c (16 * r + 15) h p q]
  rfl

/-- Point `16·r + s`'s addend off the argument arrays: columns `256·s …` of row `t` of the activations against the
    same columns of row `o` of the quantized weights, `t` and `o` the rows the block's `(p, q)` sits at. -/
theorem addend_eq (c : Dev nD) (r : ℕ) (hr : r < 8) (s : Fin 16) (p : Fin 2048) (q : Fin 1024) (t o : Fin 4096)
    (ht : t.val = r / 4 * 2048 + p.val) (ho : o.val = r % 4 * 1024 + q.val) :
    addend m c (16 * r + s.val) (ix2 p q)
      = ∑ k : Fin 256, argX m c (ix2 t (finProdFinEquiv (s, k))) * tern (argW m c (ix2 o (finProdFinEquiv (s, k)))) := by
  have hs := s.isLt
  have hn : 16 * r + s.val < cfg0.N := by rw [show cfg0.N = 128 from N_0]; omega
  rw [addend_apply m c _ hn p q]
  refine Finset.sum_congr rfl fun k _ => ?_
  have hk := k.isLt
  have hi : (finProdFinEquiv (s, k) : Fin 4096).val = (16 * r + s.val) % 16 * 256 + k.val := by
    rw [SumFinMul.finProdFinEquiv_val]; omega
  rw [x_block m c ⟨16 * r + s.val, hn⟩ p k t (finProdFinEquiv (s, k)) (by show t.val = (16 * r + s.val) / 64 * 2048 + p.val; omega) hi,
    w_block m c ⟨16 * r + s.val, hn⟩ q k o (finProdFinEquiv (s, k)) (by show o.val = (16 * r + s.val) / 16 % 4 * 1024 + q.val; omega) hi]

/-- A sum over the 4096 columns is the sum over the sixteen column blocks of the sums over their 256 columns. -/
theorem sum_columns (f : Fin 4096 → EReal) :
    ∑ i : Fin 4096, f i = ∑ s : Fin 16, ∑ k : Fin 256, f (finProdFinEquiv (s, k)) :=
  SumFinMul.sum_fin_mul 16 256 f

/-- The result array after the run is the specification of the three argument arrays. -/
theorem result_eq (c : Dev nD) :
    G3 m c = Cert.Spec.out (argX m c) (argW m c) (argB m c) := by
  funext j
  obtain ⟨t, o, rfl⟩ : ∃ (t o : Fin 4096), j = ix2 t o := ⟨j 0, j 1, eq_ix2 j⟩
  have ht := t.isLt
  have ho := o.isLt
  have hN : cfg0.N = 128 := N_0
  have hrun : run3Of (ix2 t o) = 4 * (t.val / 2048) + o.val / 1024 := by
    show 4 * (t.val / 2048 - 0) + 1 * (o.val / 1024 - 0) = _
    omega
  have hr8 : run3Of (ix2 t o) < 8 := by rw [hrun]; omega
  have hr4 : run3Of (ix2 t o) / 4 = t.val / 2048 := by rw [hrun]; omega
  have hrm : run3Of (ix2 t o) % 4 = o.val / 1024 := by rw [hrun]; omega
  have hloc : loc3Of (ix2 t o) = ix2 (⟨t.val % 2048, Nat.mod_lt _ (by decide)⟩ : Fin 2048)
      (⟨o.val % 1024, Nat.mod_lt _ (by decide)⟩ : Fin 1024) := funext fun a => by
    match a with
    | ⟨0, _⟩ => rfl
    | ⟨1, _⟩ => rfl
  unfold G3
  rw [dif_pos (by rw [hN]; omega), hloc, block_fold, Cert.Spec.out_apply]
  congr 1
  · rw [Finset.sum_range, sum_columns]
    refine Finset.sum_congr rfl fun s _ => ?_
    exact addend_eq m c _ hr8 s _ _ t o (by rw [hr4]; show t.val = t.val / 2048 * 2048 + t.val % 2048; omega)
      (by rw [hrm]; show o.val = o.val / 1024 * 1024 + o.val % 1024; omega)
  · exact bias_block m c ⟨_, _⟩ _ o (by
      show o.val = (16 * run3Of (ix2 t o) + 15) / 16 % 4 * 1024 + o.val % 1024
      omega)

end Cert.KernelIdeal.Fold

end
-- ==== Proof.RefValue.lean ====
/-
  The reference's result is the specification.

  The reference's stages read at an index: the nested choice on `w > 1/2` and `w < -1/2` between the constants
  `1`, `-1`, `0` is `tern` of the weight entry; the product contracts the second axis of both operands, so entry
  `(t, o)` sums `x[t, i] · tern (w[o, i])` over `i`; the bias is broadcast along the rows.
-/
import proofs.«110966_j46084999086183_2_alg».proof.Proof.Gen.ReferenceIdeal.Read
import proofs.«110966_j46084999086183_2_alg».proof.Proof.Spec

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx

/-- The quantized weights at an entry: `tern` of the weight there. -/
theorem quantized_apply (w : (⟨S4096x4096, .f32⟩ : BufTy).Contents (Elt Ideal)) (j : S4096x4096.Idx) :
    val_main_v6 (F := Ideal) w j = Cert.Ternary.tern (w j) := by
  rw [val_main_v6_apply, val_main_v5_apply, val_main_v1_apply, val_main_v0_apply, val_main_cst_apply,
    val_main_call1_v0_apply, val_main_cst_3_apply, val_main_v4_apply, val_main_v3_apply, val_main_v2_apply,
    val_main_cst_0_apply, val_main_call0_v0_apply, val_main_cst_1_apply, val_main_call0_v1_apply, val_main_cst_2_apply]
  exact Cert.Ternary.hostTern_eq (w j)

/-- The reference's last stage is the specification of its three arguments. -/
theorem result_eq (x w : (⟨S4096x4096, .f32⟩ : BufTy).Contents (Elt Ideal)) (b : (⟨S4096, .f32⟩ : BufTy).Contents (Elt Ideal)) :
    val_main_v10 (F := Ideal) x w b = Cert.Spec.out x w b := by
  funext j
  obtain ⟨t, o, rfl⟩ : ∃ (t o : Fin 4096), j = ix2 t o := ⟨j 0, j 1, eq_ix2 j⟩
  rw [val_main_v10_apply, val_main_v9_apply, val_main_v8_apply, val_main_v7_apply, Cert.Spec.out_apply]
  show (∑ i : Fin 4096, _) + _ = _
  congr 1
  · refine Finset.sum_congr rfl fun i _ => ?_
    have el : lidx_main_v7 (ix2 t o) i = ix2 t i := funext fun a => by
      match a with
      | ⟨0, _⟩ => rfl
      | ⟨1, _⟩ => rfl
    have er : ridx_main_v7 (ix2 t o) i = ix2 o i := funext fun a => by
      match a with
      | ⟨0, _⟩ => rfl
      | ⟨1, _⟩ => rfl
    rw [quantized_apply, el, er]
  · exact congrArg b (funext fun a => by
      match a with
      | ⟨0, _⟩ => rfl)

end Cert.ReferenceIdeal.RefValue

end
-- ==== Proof.lean ====
/-
  The kernel — a ternary-weight linear layer tiled [2048, 1024] over the result with the 4096-long contraction cut into
  sixteen blocks of 256 accumulated in place in the output block, the bias added at the last block — against the
  reference `einsum('ti,oi->to', x, tern w) + b`, at exact values.

  Both programs compute `out x w b (t, o) = ∑ᵢ x[t, i] · tern (w[o, i]) + b[o]` with
  `tern w = 1` for `w > 1/2`, `-1` for `w < -1/2`, `0` between:
  * the reference spells `tern` as a nested choice and sums the 4096 products at once;
  * the kernel spells it as a sign times a gate: the sign is, where `|w| > 0`, the idealized sign-bit window (`-1`
    below zero, `1` elsewhere) and, where `|w| = 0`, `w` itself (zero); the gate is `|w| > 1/2` read as 0 or 1. This
    is `tern` on every extended real: where the gate is `1` the sign is `1` above one half and `-1` below minus one
    half, and where the gate is `0` the product is zero whatever the sign. The kernel then sums sixteen partial sums
    of 256 products from zero; addition on the extended reals is commutative and associative, so the grouping does
    not matter and no finiteness is used.
  The kernel's result array as the fold of its sixteen points and the reference's run are generated; by hand: the two
  spellings of `tern`, the stored values and the blocks read at an entry, the fold as the one sum, and the reference's
  stages as the same sum. The one rewrite of the idealization is the sign-bit window; its statement is the rule's.
-/
import proofs.«110966_j46084999086183_2_alg».proof.Defs
import proofs.«110966_j46084999086183_2_alg».proof.Proof.Gen.Kernel
import proofs.«110966_j46084999086183_2_alg».proof.Proof.Gen.Kernel.Frame
import proofs.«110966_j46084999086183_2_alg».proof.Proof.Gen.KernelIdeal
import proofs.«110966_j46084999086183_2_alg».proof.Proof.Gen.KernelIdeal.Frame
import proofs.«110966_j46084999086183_2_alg».proof.Proof.Gen.KernelIdeal.Value
import proofs.«110966_j46084999086183_2_alg».proof.Proof.Gen.ReferenceIdeal
import proofs.«110966_j46084999086183_2_alg».proof.Proof.Gen.ReferenceIdeal.Run
import proofs.«110966_j46084999086183_2_alg».proof.Proof.Gen.ReferenceIdeal.Read
import proofs.«110966_j46084999086183_2_alg».proof.Proof.Gen.Pre_finite_inputs
import proofs.«110966_j46084999086183_2_alg».proof.Proof.Fold
import proofs.«110966_j46084999086183_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization's one rewrite: `1.0` carrying the weight's sign bit became `-1` below zero and `1` elsewhere. -/
theorem preserves : Cert.preserves_Kernel_KernelIdeal :=
  IdealRules.sign_bit.statement Cert.KernelIdeal.S1024x256 .f32

/-- From memories agreeing on the arguments both programs end with `out x w b` in their result arrays. -/
theorem algebraic : Cert.algebraic_KernelIdeal_ReferenceIdeal := by
  intro m ρ m' ρ' _ hagree
  refine ⟨fun c => Cert.Spec.out (Cert.KernelIdeal.Blocks.argX m c) (Cert.KernelIdeal.Blocks.argW m c)
      (Cert.KernelIdeal.Blocks.argB m c), ?_, ?_⟩
  · exact (θ_run Cert.KernelIdeal.defs _ _).mono
      (fun _ h c => ⟨(h c).1.trans (Cert.KernelIdeal.Fold.result_eq m c), (h c).2⟩)
      (Cert.KernelIdeal.Value.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v10_eq, Cert.ReferenceIdeal.RefValue.result_eq, (hagree c).1, (hagree c).2.1,
      (hagree c).2.2]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
